-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x310 : Shape := ⟨2, ![131072, 310]⟩
abbrev S131072x100 : Shape := ⟨2, ![131072, 100]⟩
abbrev S310x10 : Shape := ⟨2, ![310, 10]⟩
abbrev S10 : Shape := ⟨1, ![10]⟩
abbrev S10x128 : Shape := ⟨2, ![10, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S131072x310 : S_.BroadcastsInDim S131072x310 (![] : Fin 0 → Fin S131072x310.rank)
  reducesTo_S131072x310_S_d0_1 : S131072x310.ReducesTo [0, 1] S_
  h_S_ : 0 < S_.numel
  bcast_S_S131072x100 : S_.BroadcastsInDim S131072x100 (![] : Fin 0 → Fin S131072x100.rank)
  reducesTo_S131072x100_S_d0_1 : S131072x100.ReducesTo [0, 1] S_
  bcast_S_S310x10 : S_.BroadcastsInDim S310x10 (![] : Fin 0 → Fin S310x10.rank)
  reducesTo_S310x10_S_d0_1 : S310x10.ReducesTo [0, 1] S_
  bcast_S_S10 : S_.BroadcastsInDim S10 (![] : Fin 0 → Fin S10.rank)
  reducesTo_S10_S_d0 : S10.ReducesTo [0] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S10x128 .f32) (main_arg5 : FVec F S128 .f32) (main_arg6 : FVec F S128x2 .f32) (main_arg7 : FVec F S2 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x128 .f32 := Host.absf main_arg4
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_v33

def fn {F : FTy → Type} [FloatOps F] (main_arg0 : FVec F S131072x310 .f32) (main_arg1 : FVec F S131072x100 .f32) (main_arg2 : FVec F S310x10 .f32) (main_arg3 : FVec F S10 .f32) (main_arg4 : FVec F S10x128 .f32) (main_arg5 : FVec F S128 .f32) (main_arg6 : FVec F S128x2 .f32) (main_arg7 : FVec F S2 .f32) : IVec S_ 1 :=
  let main_v0 : FVec F S131072x310 .f32 := Host.absf main_arg0
  let main_cst : FVec F S_ .f32 := constant S_ .f32 0x7F800000#32
  let main_v1 : FVec F S131072x310 .f32 := broadcastInDim S131072x310 ![] bcast_S_S131072x310 main_cst
  let main_v2 : IVec S131072x310 1 := cmpf .olt main_v0 main_v1
  let main_c : IVec S_ 1 := constantI S_ 1 1#1
  let main_v3 : IVec S_ 1 := (fun x v => Host.reduce IntOp.andi x v reducesTo_S131072x310_S_d0_1 h_S_) main_v2 main_c
  let main_v4 : FVec F S131072x100 .f32 := Host.absf main_arg1
  let main_cst_0 : FVec F S_ .f32 := constant S_ .f32 0x7F800000#32
  let main_v5 : FVec F S131072x100 .f32 := broadcastInDim S131072x100 ![] bcast_S_S131072x100 main_cst_0
  let main_v6 : IVec S131072x100 1 := cmpf .olt main_v4 main_v5
  let main_c_1 : IVec S_ 1 := constantI S_ 1 1#1
  let main_v7 : IVec S_ 1 := (fun x v => Host.reduce IntOp.andi x v reducesTo_S131072x100_S_d0_1 h_S_) main_v6 main_c_1
  let main_v8 : IVec S_ 1 := andi main_v3 main_v7
  let main_v9 : FVec F S310x10 .f32 := Host.absf main_arg2
  let main_cst_2 : FVec F S_ .f32 := constant S_ .f32 0x7F800000#32
  let main_v10 : FVec F S310x10 .f32 := broadcastInDim S310x10 ![] bcast_S_S310x10 main_cst_2
  let main_v11 : IVec S310x10 1 := cmpf .olt main_v9 main_v10
  let main_c_3 : IVec S_ 1 := constantI S_ 1 1#1
  let main_v12 : IVec S_ 1 := (fun x v => Host.reduce IntOp.andi x v reducesTo_S310x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S131072x310 : Shape := ⟨2, ![131072, 310]⟩
abbrev S131072x100 : Shape := ⟨2, ![131072, 100]⟩
abbrev S310x10 : Shape := ⟨2, ![310, 10]⟩
abbrev S10 : Shape := ⟨1, ![10]⟩
abbrev S10x128 : Shape := ⟨2, ![10, 128]⟩
abbrev S128 : Shape := ⟨1, ![128]⟩
abbrev S128x2 : Shape := ⟨2, ![128, 2]⟩
abbrev S2 : Shape := ⟨1, ![2]⟩
abbrev S1x10 : Shape := ⟨2, ![1, 10]⟩
abbrev S1x128 : Shape := ⟨2, ![1, 128]⟩
abbrev S1x2 : Shape := ⟨2, ![1, 2]⟩
abbrev S8192x310 : Shape := ⟨2, ![8192, 310]⟩
abbrev S8192x100 : Shape := ⟨2, ![8192, 100]⟩
abbrev S8192x10 : Shape := ⟨2, ![8192, 10]⟩
abbrev S8192x128 : Shape := ⟨2, ![8192, 128]⟩
abbrev S8192x2 : Shape := ⟨2, ![8192, 2]⟩
abbrev S8192x1 : Shape := ⟨2, ![8192, 1]⟩

abbrev nBuf : Space → Nat
  | .hbm => 12
  | .vmem => 12
  | .smem => 0
  | _ => 0

abbrev bufTy : (tb : Table) → Fin (tcTables nBuf tb) → BufTy
  | .hbm, ⟨0, _⟩ => ⟨S131072x310, .f32⟩
  | .hbm, ⟨1, _⟩ => ⟨S131072x100, .f32⟩
  | .hbm, ⟨2, _⟩ => ⟨S310x10, .f32⟩
  | .hbm, ⟨3, _⟩ => ⟨S10, .f32⟩
  | .hbm, ⟨4, _⟩ => ⟨S10x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S1x10, .f32⟩
  | .hbm, ⟨9, _⟩ => ⟨S1x128, .f32⟩
  | .hbm, ⟨10, _⟩ => ⟨S1x2, .f32⟩
  | .hbm, ⟨11, _⟩ => ⟨S131072x100, .f32⟩
  | .local _ .vmem, ⟨0, _⟩ => ⟨S8192x310, .f32⟩
  | .local _ .vmem, ⟨1, _⟩ => ⟨S8192x310, .f32⟩
  | .local _ .vmem, ⟨2, _⟩ => ⟨S8192x100, .f32⟩
  | .local _ .vmem, ⟨3, _⟩ => ⟨S8192x100, .f32⟩
  | .local _ .vmem, ⟨4, _⟩ => ⟨S310x10, .f32⟩
  | .local _ .vmem, ⟨5, _⟩ => ⟨S1x10, .f32⟩
  | .local _ .vmem, ⟨6, _⟩ => ⟨S10x128, .f32⟩
  | .local _ .vmem, ⟨7, _⟩ => ⟨S1x128, .f32⟩
  | .local _ .vmem, ⟨8, _⟩ => ⟨S128x2, .f32⟩
  | .local _ .vmem, ⟨9, _⟩ => ⟨S1x2, .f32⟩
  | .local _ .vmem, ⟨10, _⟩ => ⟨S8192x100, .f32⟩
  | .local _ .vmem, ⟨11, _⟩ => ⟨S8192x100, .f32⟩
  | _, _ => ⟨S131072x310, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x310 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S310x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S10_S1x10 : S10.ShapeCasts S1x10
  shapeCasts_S128_S1x128 : S128.ShapeCasts S1x128
  shapeCasts_S2_S1x2 : S2.ShapeCasts S1x2
  inb_S8192x310_S8192x310_0_0 : ∀ a, (![0, 0] : Fin 2 → Nat) a + S8192x310.size a ≤ S8192x310.size a
  h_S8192x310 : 0 < S8192x310.numel
  inb_S310x10_S310x10_0_0 : ∀ a, (![0, 0] : Fin 2 → Nat) a + S310x10.size a ≤ S310x10.size a
  h_S310x10 : 0 < S310x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8192x10 : S1x10.Broadcasts S8192x10
  inb_S10x128_S10x128_0_0 : ∀ a, (![0, 0] : Fin 2 → Nat) a + S10x128.size a ≤ S10x128.size a
  h_S10x128 : 0 < S10x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  inb_S8192x100_S8192x100_0_0 : ∀ a, (![0, 0] : Fin 2 → Nat) a + S8192x100.size a ≤ S8192x100.size a
  h_S8192x100 : 0 < S8192x100.numel
  slices_S8192x2_o0_0_S8192x1 : S8192x2.Slices ![0, 0] S8192x1
  broadcasts_S8192x1_S8192x100 : S8192x1.Broadcasts S8192x100
  slices_S8192x2_o0_1_S8192x1 : S8192x2.Slices ![0, 1] S8192x1
  dot_S8192x310_S310x10_S8192x10_1_0_0_1_n_n_wf : DotDims.WF S8192x310 S310x10 S8192x10 [1] [0] [0] [1] [] []
  dot_S8192x10_S10x128_S8192x128_1_0_0_1_n_n_wf : DotDims.WF S8192x10 S10x128 S8192x128 [1] [0] [0] [1] [] []
  dot_S8192x128_S128x2_S8192x2_1_0_0_1_n_n_wf : DotDims.WF S8192x128 S128x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x310.size a ≤ S131072x310.size a
  hwx0_0 : ∀ i : grid0.Coords, EltTy.bits .f32 = 32 ∨ (Rect.block (s := S131072x310) S8192x310.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x100.size a ≤ S131072x100.size a
  hwx0_1 : ∀ i : grid0.Coords, EltTy.bits .f32 = 32 ∨ (Rect.block (s := S131072x100) S8192x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S310x10.size a ≤ S310x10.size a
  hwx0_2 : ∀ i : grid0.Coords, EltTy.bits .f32 = 32 ∨ (Rect.block (s := S310x10) S310x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x128.size a ≤ S10x128.size a
  hwx0_4 : ∀ i : grid0.Coords, EltTy.bits .f32 = 32 ∨ (Rect.block (s := S10x128) S10x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x2.size a ≤ S128x2.size a
  hwx0_6 : ∀ i : grid0.Coords, EltTy.bits .f32 = 32 ∨ (Rect.block (s := S128x2) S128x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x100.size a ≤ S131072x100.size a
  hwx0_8 : ∀ i : grid0.Coords, EltTy.bits .f32 = 32 ∨ (Rect.block (s := S131072x100) S8192x100.size (cc0_transform_8 i) (hinb0_8 i)).WholeWords (EltTy.packing .f32)

variable [Facts₀]

def dot_S8192x310_S310x10_S8192x10_1_0_0_1_n_n : DotDims S8192x310 S310x10 S8192x10 where
  lhsContracting := [1]
  rhsContracting := [0]
  lhsNonContracting := [0]
  rhsNonContracting := [1]
  lhsBatch := []
  rhsBatch := []
  wf := dot_S8192x310_S310x10_S8192x10_1_0_0_1_n_n_wf
def dot_S8192x10_S10x128_S8192x128_1_0_0_1_n_n : DotDims S8192x10 S10x128 S8192x128 where
  lhsContracting := [1]
  rhsContracting := [0]
  lhsNonContracting := [0]
  rhsNonContracting := [1]
  lhsBatch := []
  rhsBatch := []
  wf := dot_S8192x10_S10x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

abbrev win0_0 : Pipeline.Window sig grid0 :=
  Pipeline.Window.ofSpec (Memref.whole main_arg0) S8192x310.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S310x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S8192x100.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x310 : Shape := ⟨2, ![131072, 310]⟩
abbrev S131072x100 : Shape := ⟨2, ![131072, 100]⟩
abbrev S310x10 : Shape := ⟨2, ![310, 10]⟩
abbrev S10 : Shape := ⟨1, ![10]⟩
abbrev S10x128 : Shape := ⟨2, ![10, 128]⟩
abbrev S128 : Shape := ⟨1, ![128]⟩
abbrev S128x2 : Shape := ⟨2, ![128, 2]⟩
abbrev S2 : Shape := ⟨1, ![2]⟩
abbrev S131072x10 : Shape := ⟨2, ![131072, 10]⟩
abbrev S1x10 : Shape := ⟨2, ![1, 10]⟩
abbrev S_ : Shape := ⟨0, ![]⟩
abbrev S131072x128 : Shape := ⟨2, ![131072, 128]⟩
abbrev S1x128 : Shape := ⟨2, ![1, 128]⟩
abbrev S131072x2 : Shape := ⟨2, ![131072, 2]⟩
abbrev S1x2 : Shape := ⟨2, ![1, 2]⟩
abbrev S131072x1 : Shape := ⟨2, ![131072, 1]⟩

abbrev nBuf : Space → Nat
  | .hbm => 49
  | .vmem => 0
  | .smem => 0
  | _ => 0

abbrev bufTy : (tb : Table) → Fin (tcTables nBuf tb) → BufTy
  | .hbm, ⟨0, _⟩ => ⟨S131072x310, .f32⟩
  | .hbm, ⟨1, _⟩ => ⟨S131072x100, .f32⟩
  | .hbm, ⟨2, _⟩ => ⟨S310x10, .f32⟩
  | .hbm, ⟨3, _⟩ => ⟨S10, .f32⟩
  | .hbm, ⟨4, _⟩ => ⟨S10x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S131072x10, .f32⟩
  | .hbm, ⟨9, _⟩ => ⟨S1x10, .f32⟩
  | .hbm, ⟨10, _⟩ => ⟨S131072x10, .f32⟩
  | .hbm, ⟨11, _⟩ => ⟨S131072x10, .f32⟩
  | .hbm, ⟨12, _⟩ => ⟨S_, .f32⟩
  | .hbm, ⟨13, _⟩ => ⟨S131072x10, .f32⟩
  | .hbm, ⟨14, _⟩ => ⟨S131072x10, .i1⟩
  | .hbm, ⟨15, _⟩ => ⟨S_, .f32⟩
  | .hbm, ⟨16, _⟩ => ⟨S131072x10, .f32⟩
  | .hbm, ⟨17, _⟩ => ⟨S131072x10, .f32⟩
  | .hbm, ⟨18, _⟩ => ⟨S131072x10, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .i1⟩
  | .hbm, ⟨26, _⟩ => ⟨S_, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x2, .f32⟩
  | .hbm, ⟨31, _⟩ => ⟨S1x2, .f32⟩
  | .hbm, ⟨32, _⟩ => ⟨S131072x2, .f32⟩
  | .hbm, ⟨33, _⟩ => ⟨S131072x2, .f32⟩
  | .hbm, ⟨34, _⟩ => ⟨S_, .f32⟩
  | .hbm, ⟨35, _⟩ => ⟨S131072x2, .f32⟩
  | .hbm, ⟨36, _⟩ => ⟨S131072x2, .i1⟩
  | .hbm, ⟨37, _⟩ => ⟨S_, .f32⟩
  | .hbm, ⟨38, _⟩ => ⟨S131072x2, .f32⟩
  | .hbm, ⟨39, _⟩ => ⟨S131072x2, .f32⟩
  | .hbm, ⟨40, _⟩ => ⟨S131072x2, .f32⟩
  | .hbm, ⟨41, _⟩ => ⟨S131072x100, .f32⟩
  | .hbm, ⟨42, _⟩ => ⟨S131072x1, .f32⟩
  | .hbm, ⟨43, _⟩ => ⟨S131072x100, .f32⟩
  | .hbm, ⟨44, _⟩ => ⟨S131072x100, .f32⟩
  | .hbm, ⟨45, _⟩ => ⟨S131072x1, .f32⟩
  | .hbm, ⟨46, _⟩ => ⟨S131072x100, .f32⟩
  | .hbm, ⟨47, _⟩ => ⟨S131072x100, .f32⟩
  | .hbm, ⟨48, _⟩ => ⟨S131072x100, .f32⟩
  | _, _ => ⟨S131072x310, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S131072x10_0_1 : S1x10.BroadcastsInDim S131072x10 (![0, 1] : Fin 2 → Fin S131072x10.rank)
  bcast_S_S131072x10 : S_.BroadcastsInDim S131072x10 (![] : Fin 0 → Fin S131072x10.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  slices_S131072x2_S131072x1_0_0 : S131072x2.Slices ![0, 0] S131072x1
  bcast_S131072x1_S131072x100_0_1 : S131072x1.BroadcastsInDim S131072x100 (![0, 1] : Fin 2 → Fin S131072x100.rank)
  slices_S131072x2_S131072x1_0_1 : S131072x2.Slices ![0, 1] S131072x1
  dot_S131072x310_S310x10_S131072x10_1_0_0_1_n_n_wf : DotDims.WF S131072x310 S310x10 S131072x10 [1] [0] [0] [1] [] []
  dot_S131072x10_S10x128_S131072x128_1_0_0_1_n_n_wf : DotDims.WF S131072x10 S10x128 S131072x128 [1] [0] [0] [1] [] []
  dot_S131072x128_S128x2_S131072x2_1_0_0_1_n_n_wf : DotDims.WF S131072x128 S128x2 S131072x2 [1] [0] [0] [1] [] []

variable [Facts₀]

def dot_S131072x310_S310x10_S131072x10_1_0_0_1_n_n : DotDims S131072x310 S310x10 S131072x10 where
  lhsContracting := [1]
  rhsContracting := [0]
  lhsNonContracting := [0]
  rhsNonContracting := [1]
  lhsBatch := []
  rhsBatch := []
  wf := dot_S131072x310_S310x10_S131072x10_1_0_0_1_n_n_wf
def dot_S131072x10_S10x128_S131072x128_1_0_0_1_n_n : DotDims S131072x10 S10x128 S131072x128 where
  lhsContracting := [1]
  rhsContracting := [0]
  lhsNonContracting := [0]
  rhsNonContracting := [1]
  lhsBatch := []
  rhsBatch := []
  wf := dot_S131072x10_S10x128_S131072x128_1_0_0_1_n_n_wf
def dot_S131072x128_S128x2_S131072x2_1_0_0_1_n_n : DotDims S131072x128 S128x2 S131072x2 where
  lhsContracting := [1]
  rhsContracting := [0]
  lhsNonContracting := [0]
  rhsNonContracting := [1]
  lhsBatch := []
  rhsBatch := []
  wf := dot_S131072x128_S128x2_S131072x2_1_0_0_1_n_n_wf

class Facts : Prop extends Facts₀ where

variable [Facts]
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibLeakyLayer.lean ====
/-
  A dense layer with a leaky rectifier, on the extended reals.

  For a row h of n extended reals, weights W (n by k) and a bias b (k), the layer's output at j is
      leaky (sum over q of h q * W q j  +  b j),
  where leaky v is v when v >= 0 and s * v otherwise, s the value of a given f32 word (the float nearest 1/100 for the
  usual slope). The comparison and the choice are the float operations' own, read on the extended reals, so the
  definition says nothing about which branch an infinity takes: both sides of an equivalence use the same one.

  The layer acts on each row of a matrix by itself. This file states that for the vector spelling: the matrix-unit
  product of an [a, n] block with an [n, k] weight into a zero accumulator, plus a [1, k] bias laid along the rows,
  compared with a zero splat and chosen against the slope splat times itself, read at (p, e), is the layer applied to
  row p of the block, at e.
-/
import Idealize.ShloMosaic.PureOps.Ideal.Laws
import Idealize.ShloMosaic.Lib.ValueIdx
import Idealize.ShloMosaic.Lib.Pipeline.Value
import proofs.«115540_j78881369358886_2_alg».proof.Proof.LibColsMatmul

noncomputable section

namespace Cert.LeakyLayer

open Idealize.ShloMosaic Idealize.ShloMosaic.ValueIdx Cert.ColsMatmul

/-- The leaky rectifier with slope word `s`: `v` where `v ≥ 0` holds (the ordered comparison against the zero word),
    the slope times `v` elsewhere. -/
def leaky (s : BitVec 32) (v : EReal) : EReal :=
  Scalar.select (FloatOps.cmpf (F := Ideal) (φ := .f32) .oge v (FloatOps.ofBits (F := Ideal) .f32 0x00000000#32)) v
    (FloatOps.ofBits (F := Ideal) .f32 s * v)

/-- One dense layer on a row: the row against each column of the weights, plus the bias, through the rectifier. -/
def layer {n k : ℕ} (s : BitVec 32) (W : Fin n → Fin k → EReal) (b : Fin k → EReal) (h : Fin n → EReal) : Fin k → EReal :=
  fun j => leaky s ((∑ q : Fin n, h q * W q j) + b j)

variable {a n k : ℕ}

/-- A [1, k] bias, cast to its own shape and broadcast along the rows of [a, k], reads the bias's entry e at (p, e). -/
theorem rowBias_apply (bias : (⟨2, ![1, k]⟩ : Shape).Idx → EReal)
    (hc : (⟨2, ![1, k]⟩ : Shape).ShapeCasts ⟨2, ![1, k]⟩) (hb : (⟨2, ![1, k]⟩ : Shape).Broadcasts ⟨2, ![a, k]⟩)
    (p : Fin a) (e : Fin k) :
    broadcastTo ⟨2, ![a, k]⟩ (shapeCast ⟨2, ![1, k]⟩ bias hc) hb (ix2 p e) = bias (ix2 0 e) := by
  rw [shapeCast_self]
  refine broadcastTo_apply bias hb (ix2 p e) (ix2 0 e) (fun ax => ?_)
  have he : e.val < k := e.isLt
  match ax with
  | ⟨0, _⟩ => show 0 = if (1 : ℕ) = 1 then 0 else p.val; rw [if_pos rfl]
  | ⟨1, _⟩ => show e.val = if k = 1 then 0 else e.val; split <;> omega

/-- The layer before the rectifier, as vectors: the product into the zero accumulator plus the bias along the rows. -/
def preAct (d : DotDims ⟨2, ![a, n]⟩ ⟨2, ![n, k]⟩ ⟨2, ![a, k]⟩) (x : FVec Ideal ⟨2, ![a, n]⟩ .f32) (w : FVec Ideal ⟨2, ![n, k]⟩ .f32)
    (bias : FVec Ideal ⟨2, ![1, k]⟩ .f32) (hc : (⟨2, ![1, k]⟩ : Shape).ShapeCasts ⟨2, ![1, k]⟩)
    (hb : (⟨2, ![1, k]⟩ : Shape).Broadcasts ⟨2, ![a, k]⟩) : FVec Ideal ⟨2, ![a, k]⟩ .f32 :=
  addf (matmul d none x w (constant ⟨2, ![a, k]⟩ .f32 0x00000000#32)) (broadcastTo ⟨2, ![a, k]⟩ (shapeCast ⟨2, ![1, k]⟩ bias hc) hb)

/-- The layer as vectors: the pre-activation where it is at least the zero splat, the slope splat times it elsewhere. -/
def blockLayer (s : BitVec 32) (d : DotDims ⟨2, ![a, n]⟩ ⟨2, ![n, k]⟩ ⟨2, ![a, k]⟩) (x : FVec Ideal ⟨2, ![a, n]⟩ .f32)
    (w : FVec Ideal ⟨2, ![n, k]⟩ .f32) (bias : FVec Ideal ⟨2, ![1, k]⟩ .f32) (hc : (⟨2, ![1, k]⟩ : Shape).ShapeCasts ⟨2, ![1, k]⟩)
    (hb : (⟨2, ![1, k]⟩ : Shape).Broadcasts ⟨2, ![a, k]⟩) : FVec Ideal ⟨2, ![a, k]⟩ .f32 :=
  select (cmpf .oge (preAct d x w bias hc hb) (broadcast ⟨2, ![a, k]⟩ (Scalar.ofBits .f32 0x00000000#32)))
    (preAct d x w bias hc hb)
    (mulf (broadcast ⟨2, ![a, k]⟩ (Scalar.ofBits .f32 s)) (preAct d x w bias hc hb))

variable (wf : DotDims.WF ⟨2, ![a, n]⟩ ⟨2, ![n, k]⟩ ⟨2, ![a, k]⟩ [1] [0] [0] [1] [] [])

/-- The pre-activation at (p, e): row p of the block against column e of the weights, plus the bias's entry e. -/
theorem preAct_apply (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (hc : (⟨2, ![1, k]⟩ : Shape).ShapeCasts ⟨2, ![1, k]⟩) (hb : (⟨2, ![1, k]⟩ : Shape).Broadcasts ⟨2, ![a, k]⟩)
    (p : Fin a) (e : Fin k) :
    preAct d x w bias hc hb (ix2 p e) = (∑ q : Fin n, x (ix2 p q) * w (ix2 q e)) + bias (ix2 0 e) := by
  show FloatOps.matmul d none x w (constant ⟨2, ![a, k]⟩ .f32 0x00000000#32) (ix2 p e)
      + broadcastTo ⟨2, ![a, k]⟩ (shapeCast ⟨2, ![1, k]⟩ bias hc) hb (ix2 p e) = _
  rw [cols_matmul wf d hd x w p e, rowBias_apply bias hc hb p e]

/-- The vector layer at (p, e) is the row layer of row p, at e. -/
theorem blockLayer_apply (s : BitVec 32) (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (hc : (⟨2, ![1, k]⟩ : Shape).ShapeCasts ⟨2, ![1, k]⟩) (hb : (⟨2, ![1, k]⟩ : Shape).Broadcasts ⟨2, ![a, k]⟩)
    (p : Fin a) (e : Fin k) :
    blockLayer s d x w bias hc hb (ix2 p e)
      = layer s (fun q j => w (ix2 q j)) (fun j => bias (ix2 0 j)) (fun q => x (ix2 p q)) e := by
  show Scalar.select (FloatOps.cmpf (F := Ideal) (φ := .f32) .oge (preAct d x w bias hc hb (ix2 p e)) (FloatOps.ofBits (F := Ideal) .f32 0x00000000#32))
      (preAct d x w bias hc hb (ix2 p e)) (FloatOps.ofBits (F := Ideal) .f32 s * preAct d x w bias hc hb (ix2 p e)) = _
  rw [preAct_apply wf d hd x w bias hc hb p e]
  rfl

end Cert.LeakyLayer

end
-- ==== Proof.PolyNet.lean ====
/-
  The function both programs compute.

  Each batch row is treated by itself. A three-layer perceptron with leaky rectifiers maps the row's 310 features to
  two coefficients c0, c1 (310 -> 10 -> 128 -> 2); the row's 100 outputs are c0 * t + c1 * (t * t) at the row's 100
  entries t of the second input. All three rectifiers use the slope word 0x3C23D70A, the float nearest 1/100; it
  enters both programs as that same word, so its value is never needed.
-/
import proofs.«115540_j78881369358886_2_alg».proof.Proof.LibLeakyLayer

noncomputable section

namespace Cert.PolyNet

open Idealize.ShloMosaic Idealize.ShloMosaic.ValueIdx Cert.LeakyLayer

/-- The rectifiers' slope, as the f32 word both programs carry. -/
abbrev slope : BitVec 32 := 0x3C23D70A#32

/-- The two coefficients of one row: three leaky layers, 310 -> 10 -> 128 -> 2. -/
def coeff (W1 : Fin 310 → Fin 10 → EReal) (b1 : Fin 10 → EReal) (W2 : Fin 10 → Fin 128 → EReal) (b2 : Fin 128 → EReal)
    (W3 : Fin 128 → Fin 2 → EReal) (b3 : Fin 2 → EReal) (xrow : Fin 310 → EReal) : Fin 2 → EReal :=
  layer slope W3 b3 (layer slope W2 b2 (layer slope W1 b1 xrow))

/-- The degree-two polynomial without constant term, with coefficients `c`, at `t`. -/
def poly (c : Fin 2 → EReal) (t : EReal) : EReal := c 0 * t + c 1 * (t * t)

/-- A matrix held as an array over index pairs, as a function of its two coordinates. -/
abbrev mat {n k : ℕ} (W : (⟨2, ![n, k]⟩ : Shape).Idx → EReal) : Fin n → Fin k → EReal := fun q j => W (ix2 q j)

/-- A vector held as an array over one-coordinate indices, as a function of its coordinate. -/
abbrev vec {k : ℕ} (b : (⟨1, ![k]⟩ : Shape).Idx → EReal) : Fin k → EReal := fun j => b (ix1 j)

/-- Row `r` of the feature array. -/
abbrev rowOf (x : (⟨2, ![131072, 310]⟩ : Shape).Idx → EReal) (r : Fin 131072) : Fin 310 → EReal := fun q => x (ix2 r q)

/-- The whole result: at (r, c), the polynomial with row r's coefficients at the second input's entry (r, c). -/
def out (x : (⟨2, ![131072, 310]⟩ : Shape).Idx → EReal) (dt : (⟨2, ![131072, 100]⟩ : Shape).Idx → EReal)
    (W1 : (⟨2, ![310, 10]⟩ : Shape).Idx → EReal) (b1 : (⟨1, ![10]⟩ : Shape).Idx → EReal)
    (W2 : (⟨2, ![10, 128]⟩ : Shape).Idx → EReal) (b2 : (⟨1, ![128]⟩ : Shape).Idx → EReal)
    (W3 : (⟨2, ![128, 2]⟩ : Shape).Idx → EReal) (b3 : (⟨1, ![2]⟩ : Shape).Idx → EReal) :
    (⟨2, ![131072, 100]⟩ : Shape).Idx → EReal :=
  fun i => poly (coeff (mat W1) (vec b1) (mat W2) (vec b2) (mat W3) (vec b3) (rowOf x (i 0))) (dt i)

end Cert.PolyNet

end
-- ==== Proof.BlockRow.lean ====
/-
  The kernel body on one block of 8192 rows.

  The body's coefficient payload is three vector layers one after the other, so at (r, j) it is the row function
  `coeff` of row r of the loaded feature block, with the loaded weights and the loaded [1, k] biases; and what the body
  leaves in the output block at (r, c) is the polynomial with those coefficients at the loaded second-input block's
  entry (r, c).
-/
import proofs.«115540_j78881369358886_2_alg».proof.Proof.Gen.KernelIdeal.Value
import proofs.«115540_j78881369358886_2_alg».proof.Proof.PolyNet

noncomputable section

namespace Cert.KernelIdeal.BlockRow

open Cert.KernelIdeal Cert.KernelIdeal.Gen Idealize.ShloMosaic Idealize.ShloMosaic.ValueIdx
open Cert.ColsMatmul Cert.LeakyLayer Cert.PolyNet

/-- A [1, k] bias block as a function of its one free coordinate. -/
abbrev biasRow {k : ℕ} (b : (⟨2, ![1, k]⟩ : Shape).Idx → EReal) : Fin k → EReal := fun j => b (ix2 0 j)

/-- The coefficient payload is the three vector layers, innermost first. -/
theorem pay2_layers (P0 : Vec Ideal S8192x310 .f32) (P1 : Vec Ideal S310x10 .f32) (P2 : Vec Ideal S1x10 .f32)
    (P3 : Vec Ideal S10x128 .f32) (P4 : Vec Ideal S1x128 .f32) (P5 : Vec Ideal S128x2 .f32) (P6 : Vec Ideal S1x2 .f32) :
    k0_pay2 P0 P1 P2 P3 P4 P5 P6
      = blockLayer slope dot_S8192x128_S128x2_S8192x2_1_0_0_1_n_n
          (blockLayer slope dot_S8192x10_S10x128_S8192x128_1_0_0_1_n_n
            (blockLayer slope dot_S8192x310_S310x10_S8192x10_1_0_0_1_n_n P0 P1 P2 shapeCasts_S1x10_S1x10 broadcasts_S1x10_S8192x10)
            P3 P4 shapeCasts_S1x128_S1x128 broadcasts_S1x128_S8192x128)
          P5 P6 shapeCasts_S1x2_S1x2 broadcasts_S1x2_S8192x2 := rfl

/-- The coefficient payload at (r, j): the row function of row r of the feature block. -/
theorem pay2_apply (P0 : Vec Ideal S8192x310 .f32) (P1 : Vec Ideal S310x10 .f32) (P2 : Vec Ideal S1x10 .f32)
    (P3 : Vec Ideal S10x128 .f32) (P4 : Vec Ideal S1x128 .f32) (P5 : Vec Ideal S128x2 .f32) (P6 : Vec Ideal S1x2 .f32)
    (r : Fin 8192) (j : Fin 2) :
    k0_pay2 P0 P1 P2 P3 P4 P5 P6 (ix2 r j)
      = coeff (mat P1) (biasRow P2) (mat P3) (biasRow P4) (mat P5) (biasRow P6) (fun q => P0 (ix2 r q)) j := by
  rw [pay2_layers]
  refine (blockLayer_apply Facts₀.dot_S8192x128_S128x2_S8192x2_1_0_0_1_n_n_wf slope _ rfl _ P5 P6 _ _ r j).trans ?_
  refine congrArg (fun h => layer slope (mat P5) (biasRow P6) h j) (funext fun q2 => ?_)
  refine (blockLayer_apply Facts₀.dot_S8192x10_S10x128_S8192x128_1_0_0_1_n_n_wf slope _ rfl _ P3 P4 _ _ r q2).trans ?_
  refine congrArg (fun h => layer slope (mat P3) (biasRow P4) h q2) (funext fun q1 => ?_)
  exact blockLayer_apply Facts₀.dot_S8192x310_S310x10_S8192x10_1_0_0_1_n_n_wf slope _ rfl P0 P1 P2 _ _ r q1

/-- The block the body leaves, as the generated index-by-index function of the loads, at (r, c): the polynomial with
    row r's coefficients at the second-input block's entry (r, c). -/
theorem block_apply (P0 : Vec Ideal S8192x310 .f32) (P1 : Vec Ideal S310x10 .f32) (P2 : Vec Ideal S1x10 .f32)
    (P3 : Vec Ideal S10x128 .f32) (P4 : Vec Ideal S1x128 .f32) (P5 : Vec Ideal S128x2 .f32) (P6 : Vec Ideal S1x2 .f32)
    (P7 : Vec Ideal S8192x100 .f32) (r : Fin 8192) (c : Fin 100) :
    Value.E8 P0 P1 P2 P3 P4 P5 P6 P7 (ix2 r c)
      = poly (coeff (mat P1) (biasRow P2) (mat P3) (biasRow P4) (mat P5) (biasRow P6) (fun q => P0 (ix2 r q))) (P7 (ix2 r c)) := by
  have e0 : Value.ix8_0 (ix2 r c) = ix2 r (0 : Fin 2) := funext fun a => match a with | ⟨0, _⟩ => rfl | ⟨1, _⟩ => rfl
  have e1 : Value.ix8_1 (ix2 r c) = ix2 r c := funext fun a => match a with | ⟨0, _⟩ => rfl | ⟨1, _⟩ => rfl
  have e2 : Value.ix8_2 (ix2 r c) = ix2 r (1 : Fin 2) := funext fun a => match a with | ⟨0, _⟩ => rfl | ⟨1, _⟩ => rfl
  have e3 : Value.ix8_3 (ix2 r c) = ix2 r c := funext fun a => match a with | ⟨0, _⟩ => rfl | ⟨1, _⟩ => rfl
  have e4 : Value.ix8_4 (ix2 r c) = ix2 r c := funext fun a => match a with | ⟨0, _⟩ => rfl | ⟨1, _⟩ => rfl
  show k0_pay2 P0 P1 P2 P3 P4 P5 P6 (Value.ix8_0 (ix2 r c)) * P7 (Value.ix8_1 (ix2 r c))
      + k0_pay2 P0 P1 P2 P3 P4 P5 P6 (Value.ix8_2 (ix2 r c)) * (P7 (Value.ix8_3 (ix2 r c)) * P7 (Value.ix8_4 (ix2 r c))) = _
  rw [e0, e1, e2, e3, e4, pay2_apply, pay2_apply]
  rfl

end Cert.KernelIdeal.BlockRow

end
-- ==== Proof.Tiles.lean ====
/-
  From blocks of 8192 rows to the whole array.

  Grid point t stages rows t * 8192 .. t * 8192 + 8191 of the features and of the second input, the whole of each
  weight matrix, and each bias as the one-row matrix the host made of it; it writes back rows t * 8192 .. of the
  result. The row function needs nothing outside its own row, so what point t writes back is block t of `out`; the
  sixteen blocks cover every row (row R lies in block R / 8192), so the result array ends holding `out`.
-/
import proofs.«115540_j78881369358886_2_alg».proof.Proof.BlockRow
import Idealize.ShloMosaic.Lib.StableHlo.Run

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)
open Cert.LeakyLayer Cert.PolyNet Cert.KernelIdeal.BlockRow

variable (m : (ℓ : Loc nD τ sig) → Buf (Elt Ideal) ℓ) (ρ : Dev nD → PrngReg)

theorem zero_offsets : (![0, 0] : Fin 2 → Nat) = fun _ => 0 := funext fun a => by fin_cases a <;> rfl

/-! ## One point, over the loaded blocks as variables -/

/-- What the body leaves in the output block at (r, c): the polynomial with the coefficients of row r of the loaded
    feature block, at the loaded second-input block's entry (r, c). -/
theorem body_apply (x0 : Vec Ideal S8192x310 .f32) (x1 : Vec Ideal S8192x100 .f32) (x2 : Vec Ideal S310x10 .f32)
    (x3 : Vec Ideal S1x10 .f32) (x4 : Vec Ideal S10x128 .f32) (x5 : Vec Ideal S1x128 .f32) (x6 : Vec Ideal S128x2 .f32)
    (x7 : Vec Ideal S1x2 .f32) (r : Fin 8192) (cc : Fin 100) :
    out0_8 x0 x1 x2 x3 x4 x5 x6 x7 (ix2 r cc)
      = poly (coeff (mat x2) (biasRow x3) (mat x4) (biasRow x5) (mat x6) (biasRow x7) (fun q => x0 (ix2 r q))) (x1 (ix2 r cc)) := by
  unfold out0_8
  rw [View.ld_unit_zero zero_offsets _ x0, View.ld_unit_zero zero_offsets _ x1, View.ld_unit_zero zero_offsets _ x2,
    View.ld_unit_zero zero_offsets _ x3, View.ld_unit_zero zero_offsets _ x4, View.ld_unit_zero zero_offsets _ x5,
    View.ld_unit_zero zero_offsets _ x6, View.ld_unit_zero zero_offsets _ x7]
  exact (Value.canon8_eq x0 x2 x3 x4 x5 x6 x7 x1 (ix2 r cc)).trans (block_apply x0 x2 x3 x4 x5 x6 x7 x1 r cc)

/-- A vector cast to one row, read along that row, is the vector. -/
theorem biasRow_cast {k : ℕ} (v : (⟨1, ![k]⟩ : Shape).Idx → EReal) (h : (⟨1, ![k]⟩ : Shape).ShapeCasts ⟨2, ![1, k]⟩) :
    biasRow (shapeCast ⟨2, ![1, k]⟩ v h) = vec v := by
  funext j
  show shapeCast ⟨2, ![1, k]⟩ v h (ix2 0 j) = v (ix1 j)
  refine (shapeCast_addUnit_apply ![k] v h (ix2 0 j)).trans ?_
  exact congrArg v (funext fun a => match a with | ⟨0, _⟩ => rfl)

/-! ## The arrays the region finds, and the windows' blocks read off them -/

/-- The three bias arrays the region finds are the host's one-row casts of the bias vectors. -/
theorem bias1_array (c : Dev nD) : (V m c main_v0 : S1x10.Idx → EReal) = shapeCast S1x10 (m ((c : Thread nD τ).loc main_arg3)) shapeCasts_S10_S1x10 := by
  dsimp only [Gen.V, Gen.hostOps0]; after_results; rfl
theorem bias2_array (c : Dev nD) : (V m c main_v1 : S1x128.Idx → EReal) = shapeCast S1x128 (m ((c : Thread nD τ).loc main_arg5)) shapeCasts_S128_S1x128 := by
  dsimp only [Gen.V, Gen.hostOps0]; after_results; rfl
theorem bias3_array (c : Dev nD) : (V m c main_v2 : S1x2.Idx → EReal) = shapeCast S1x2 (m ((c : Thread nD τ).loc main_arg7)) shapeCasts_S2_S1x2 := by
  dsimp only [Gen.V, Gen.hostOps0]; after_results; rfl

/-- The printed index maps, decided over the sixteen points: the row-blocked windows sit at block row t, column block 0;
    the weights and biases stay at block (0, 0). -/
theorem index_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The feature block at (r, q) is the feature array at (R, q), R the array row under block row r. -/
theorem read_features (c : Dev nD) (t : Fin cfg0.N) (r : Fin 8192) (q : Fin 310) (R : Fin 131072)
    (hR : R.val = win0_8.index t (0 : Fin 2) * 8192 + 1 * r.val) :
    iblk m c 0 t (ix2 r q) = (m ((c : Thread nD τ).loc main_arg0)) (ix2 R q) := by
  obtain ⟨e80, e81, e00, e01, -⟩ := index_facts t
  show V m c main_arg0 (((cfg0.win 0).blk t).view.emb (ix2 r q)) = _
  rw [V_main_arg0]
  have h : ((cfg0.win 0).blk t).view.emb (ix2 r q) = ix2 R q := by
    funext a; apply Fin.ext
    match a with
    | ⟨0, _⟩ => show win0_0.index t (0 : Fin 2) * 8192 + 1 * r.val = R.val; omega
    | ⟨1, _⟩ => show win0_0.index t (1 : Fin 2) * 310 + 1 * q.val = q.val; omega
  rw [h]

/-- The second-input block at (r, c) is the second input at the array index under the output block's (r, c). -/
theorem read_second (c : Dev nD) (t : Fin cfg0.N) (r : Fin 8192) (cc : Fin 100) :
    iblk m c 1 t (ix2 r cc) = (m ((c : Thread nD τ).loc main_arg1)) (((cfg0.win 8).blk t).view.emb (ix2 r cc)) := by
  obtain ⟨e80, e81, e00, e01, e10, e11, -⟩ := index_facts t
  show V m c main_arg1 (((cfg0.win 1).blk t).view.emb (ix2 r cc)) = _
  rw [V_main_arg1]
  have h : ((cfg0.win 1).blk t).view.emb (ix2 r cc) = ((cfg0.win 8).blk t).view.emb (ix2 r cc) := by
    funext a; apply Fin.ext
    match a with
    | ⟨0, _⟩ => show win0_1.index t (0 : Fin 2) * 8192 + 1 * r.val = win0_8.index t (0 : Fin 2) * 8192 + 1 * r.val; omega
    | ⟨1, _⟩ => show win0_1.index t (1 : Fin 2) * 100 + 1 * cc.val = win0_8.index t (1 : Fin 2) * 100 + 1 * cc.val; omega
  rw [h]

/-- Each weight block is the whole weight matrix. -/
theorem read_W1 (c : Dev nD) (t : Fin cfg0.N) (q : Fin 310) (j : Fin 10) : iblk m c 2 t (ix2 q j) = (m ((c : Thread nD τ).loc main_arg2)) (ix2 q j) := by
  obtain ⟨-, -, -, -, -, -, e0, e1, -⟩ := index_facts t
  show V m c main_arg2 (((cfg0.win 2).blk t).view.emb (ix2 q j)) = _
  rw [V_main_arg2]
  have h : ((cfg0.win 2).blk t).view.emb (ix2 q j) = ix2 q j := by
    funext a; apply Fin.ext
    match a with
    | ⟨0, _⟩ => show win0_2.index t (0 : Fin 2) * 310 + 1 * q.val = q.val; omega
    | ⟨1, _⟩ => show win0_2.index t (1 : Fin 2) * 10 + 1 * j.val = j.val; omega
  rw [h]
theorem read_W2 (c : Dev nD) (t : Fin cfg0.N) (q : Fin 10) (j : Fin 128) : iblk m c 4 t (ix2 q j) = (m ((c : Thread nD τ).loc main_arg4)) (ix2 q j) := by
  obtain ⟨-, -, -, -, -, -, -, -, -, -, e0, e1, -⟩ := index_facts t
  show V m c main_arg4 (((cfg0.win 4).blk t).view.emb (ix2 q j)) = _
  rw [V_main_arg4]
  have h : ((cfg0.win 4).blk t).view.emb (ix2 q j) = ix2 q j := by
    funext a; apply Fin.ext
    match a with
    | ⟨0, _⟩ => show win0_4.index t (0 : Fin 2) * 10 + 1 * q.val = q.val; omega
    | ⟨1, _⟩ => show win0_4.index t (1 : Fin 2) * 128 + 1 * j.val = j.val; omega
  rw [h]
theorem read_W3 (c : Dev nD) (t : Fin cfg0.N) (q : Fin 128) (j : Fin 2) : iblk m c 6 t (ix2 q j) = (m ((c : Thread nD τ).loc main_arg6)) (ix2 q j) := by
  obtain ⟨-, -, -, -, -, -, -, -, -, -, -, -, -, -, e0, e1, -⟩ := index_facts t
  show V m c main_arg6 (((cfg0.win 6).blk t).view.emb (ix2 q j)) = _
  rw [V_main_arg6]
  have h : ((cfg0.win 6).blk t).view.emb (ix2 q j) = ix2 q j := by
    funext a; apply Fin.ext
    match a with
    | ⟨0, _⟩ => show win0_6.index t (0 : Fin 2) * 128 + 1 * q.val = q.val; omega
    | ⟨1, _⟩ => show win0_6.index t (1 : Fin 2) * 2 + 1 * j.val = j.val; omega
  rw [h]

/-- Each bias block, read along its one row, is the bias vector. -/
theorem read_b1 (c : Dev nD) (t : Fin cfg0.N) : biasRow (iblk m c 3 t : Vec Ideal S1x10 .f32) = vec (m ((c : Thread nD τ).loc main_arg3)) := by
  obtain ⟨-, -, -, -, -, -, -, -, e0, e1, -⟩ := index_facts t
  refine Eq.trans ?_ (biasRow_cast (m ((c : Thread nD τ).loc main_arg3)) shapeCasts_S10_S1x10)
  funext j
  show V m c main_v0 (((cfg0.win 3).blk t).view.emb (ix2 0 j)) = shapeCast S1x10 (m ((c : Thread nD τ).loc main_arg3)) shapeCasts_S10_S1x10 (ix2 0 j)
  rw [bias1_array]
  have h : ((cfg0.win 3).blk t).view.emb (ix2 0 j) = ix2 0 j := by
    funext a; apply Fin.ext
    match a with
    | ⟨0, _⟩ => show win0_3.index t (0 : Fin 2) * 1 + 1 * 0 = 0; omega
    | ⟨1, _⟩ => show win0_3.index t (1 : Fin 2) * 10 + 1 * j.val = j.val; omega
  rw [h]
theorem read_b2 (c : Dev nD) (t : Fin cfg0.N) : biasRow (iblk m c 5 t : Vec Ideal S1x128 .f32) = vec (m ((c : Thread nD τ).loc main_arg5)) := by
  obtain ⟨-, -, -, -, -, -, -, -, -, -, -, -, e0, e1, -⟩ := index_facts t
  refine Eq.trans ?_ (biasRow_cast (m ((c : Thread nD τ).loc main_arg5)) shapeCasts_S128_S1x128)
  funext j
  show V m c main_v1 (((cfg0.win 5).blk t).view.emb (ix2 0 j)) = shapeCast S1x128 (m ((c : Thread nD τ).loc main_arg5)) shapeCasts_S128_S1x128 (ix2 0 j)
  rw [bias2_array]
  have h : ((cfg0.win 5).blk t).view.emb (ix2 0 j) = ix2 0 j := by
    funext a; apply Fin.ext
    match a with
    | ⟨0, _⟩ => show win0_5.index t (0 : Fin 2) * 1 + 1 * 0 = 0; omega
    | ⟨1, _⟩ => show win0_5.index t (1 : Fin 2) * 128 + 1 * j.val = j.val; omega
  rw [h]
theorem read_b3 (c : Dev nD) (t : Fin cfg0.N) : biasRow (iblk m c 7 t : Vec Ideal S1x2 .f32) = vec (m ((c : Thread nD τ).loc main_arg7)) := by
  obtain ⟨-, -, -, -, -, -, -, -, -, -, -, -, -, -, -, -, e0, e1⟩ := index_facts t
  refine Eq.trans ?_ (biasRow_cast (m ((c : Thread nD τ).loc main_arg7)) shapeCasts_S2_S1x2)
  funext j
  show V m c main_v2 (((cfg0.win 7).blk t).view.emb (ix2 0 j)) = shapeCast S1x2 (m ((c : Thread nD τ).loc main_arg7)) shapeCasts_S2_S1x2 (ix2 0 j)
  rw [bias3_array]
  have h : ((cfg0.win 7).blk t).view.emb (ix2 0 j) = ix2 0 j := by
    funext a; apply Fin.ext
    match a with
    | ⟨0, _⟩ => show win0_7.index t (0 : Fin 2) * 1 + 1 * 0 = 0; omega
    | ⟨1, _⟩ => show win0_7.index t (1 : Fin 2) * 2 + 1 * j.val = j.val; omega
  rw [h]

/-! ## What a point writes back, the cover, the array -/

/-- What point t writes back is block t of `out` of the argument arrays. -/
theorem flushed_eq (c : Dev nD) (t : Fin cfg0.N) :
    (dats m 0 c).flushed 8 t = ((cfg0.win 8).blk t).view.read (Elt Ideal) (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8]
  funext y
  obtain ⟨r, cc, rfl⟩ : ∃ (r : Fin 8192) (cc : Fin 100), y = ix2 r cc := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 r cc)
    = poly (coeff (mat (m ((c : Thread nD τ).loc main_arg2))) (vec (m ((c : Thread nD τ).loc main_arg3))) (mat (m ((c : Thread nD τ).loc main_arg4))) (vec (m ((c : Thread nD τ).loc main_arg5))) (mat (m ((c : Thread nD τ).loc main_arg6))) (vec (m ((c : Thread nD τ).loc main_arg7)))
        (rowOf (m ((c : Thread nD τ).loc main_arg0)) ((((cfg0.win 8).blk t).view.emb (ix2 r cc)) 0)))
      ((m ((c : Thread nD τ).loc main_arg1)) (((cfg0.win 8).blk t).view.emb (ix2 r cc)))
  refine (body_apply (iblk m c 0 t) (iblk m c 1 t) (iblk m c 2 t) (iblk m c 3 t) (iblk m c 4 t) (iblk m c 5 t) (iblk m c 6 t) (iblk m c 7 t) r cc).trans ?_
  have hx : (fun q : Fin 310 => iblk m c 0 t (ix2 r q)) = rowOf (m ((c : Thread nD τ).loc main_arg0)) ((((cfg0.win 8).blk t).view.emb (ix2 r cc)) 0) :=
    funext fun q => read_features m c t r q _ rfl
  have hW1 : mat (iblk m c 2 t : Vec Ideal S310x10 .f32) = mat (m ((c : Thread nD τ).loc main_arg2)) := funext fun q => funext fun j => read_W1 m c t q j
  have hW2 : mat (iblk m c 4 t : Vec Ideal S10x128 .f32) = mat (m ((c : Thread nD τ).loc main_arg4)) := funext fun q => funext fun j => read_W2 m c t q j
  have hW3 : mat (iblk m c 6 t : Vec Ideal S128x2 .f32) = mat (m ((c : Thread nD τ).loc main_arg6)) := funext fun q => funext fun j => read_W3 m c t q j
  rw [hx, hW1, hW2, hW3, read_b1 m c t, read_b2 m c t, read_b3 m c t, read_second m c t r cc]

/-- An index of the result array is in point t's block iff each coordinate is in the block's range on its axis. -/
theorem mem_block (t : Fin cfg0.N) (i : S131072x100.Idx) :
    i ∈ ((cfg0.win 8).blk t).view.set ↔ ∀ a : Fin 2, win0_8.index t a * S8192x100.size a ≤ (i a).val ∧ (i a).val < win0_8.index t a * S8192x100.size a + S8192x100.size a := by
  show i ∈ ((View.whole main_v3).slice (win0_8.rect t)).set ↔ _
  rw [View.set_slice_whole, Rect.mem_set_unit]
  exact Iff.rfl

/-- Every index of the result array is in some point's block: row R in block R / 8192. -/
theorem covered (i : S131072x100.Idx) : ∃ t : Fin cfg0.N, (cfg0.win 8).flush t = true ∧ i ∈ ((cfg0.win 8).blk t).view.set := by
  have hi0 : (i 0).val < 131072 := (i 0).isLt
  have hi1 : (i 1).val < 100 := (i 1).isLt
  have hlt : (i 0).val / 8192 < cfg0.N := by show (i 0).val / 8192 < grid0.N; rw [N_0]; omega
  obtain ⟨e0, e1, -⟩ := index_facts ⟨(i 0).val / 8192, hlt⟩
  have e0' : win0_8.index ⟨(i 0).val / 8192, hlt⟩ (0 : Fin 2) = (i 0).val / 8192 := e0
  refine ⟨⟨(i 0).val / 8192, hlt⟩, flush0_8 _, ?_⟩
  rw [mem_block]
  intro a
  match a with
  | ⟨0, _⟩ => show win0_8.index ⟨(i 0).val / 8192, hlt⟩ (0 : Fin 2) * 8192 ≤ (i 0).val ∧ (i 0).val < win0_8.index ⟨(i 0).val / 8192, hlt⟩ (0 : Fin 2) * 8192 + 8192; omega
  | ⟨1, _⟩ => show win0_8.index ⟨(i 0).val / 8192, hlt⟩ (1 : Fin 2) * 100 ≤ (i 1).val ∧ (i 1).val < win0_8.index ⟨(i 0).val / 8192, hlt⟩ (1 : Fin 2) * 100 + 100; omega

/-- The result array after the run is `out` of the argument arrays. -/
theorem final (c : Dev nD) : (dats m 0 c).arrAt 8 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) covered

/-! ## The run -/

/-- Every weakly fair execution of the kernel's program ends with the result array holding `out` of the argument arrays,
    the arguments unchanged. -/
theorem run : θ_run defs (onTc (τ := τ) (main (F := Ideal))) ⟨m, fun _ => 0, ρ⟩ fun r => ∀ c : Dev nD,
      r.2.mem ((c : Thread nD τ).loc main_v3) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Tiles

end
-- ==== Proof.RefRow.lean ====
/-
  The reference program is the row function.

  Read one operation at a time, each of the reference's three stages "product, plus the bias along the rows, compared
  with zero, chosen against the slope times itself" is, at (R, j), the leaky layer of row R of the stage's input; so the
  stage holding the coefficients is `coeff` of row R of the features, and the last stage is the polynomial with those
  coefficients at the second input's entry: the function `out`.
-/
import proofs.«115540_j78881369358886_2_alg».proof.Proof.Gen.ReferenceIdeal.Read
import proofs.«115540_j78881369358886_2_alg».proof.Proof.PolyNet

noncomputable section

namespace Cert.ReferenceIdeal.RefRow

open Cert.ReferenceIdeal Cert.ReferenceIdeal.Gen Cert.ReferenceIdeal.Read Idealize.ShloMosaic Idealize.ShloMosaic.ValueIdx
open Cert.LeakyLayer Cert.PolyNet

variable (x0 : (⟨S131072x310, .f32⟩ : BufTy).Contents (Elt Ideal)) (x1 : (⟨S131072x100, .f32⟩ : BufTy).Contents (Elt Ideal)) (x2 : (⟨S310x10, .f32⟩ : BufTy).Contents (Elt Ideal)) (x3 : (⟨S10, .f32⟩ : BufTy).Contents (Elt Ideal))
  (x4 : (⟨S10x128, .f32⟩ : BufTy).Contents (Elt Ideal)) (x5 : (⟨S128, .f32⟩ : BufTy).Contents (Elt Ideal)) (x6 : (⟨S128x2, .f32⟩ : BufTy).Contents (Elt Ideal)) (x7 : (⟨S2, .f32⟩ : BufTy).Contents (Elt Ideal))

/-- First stage at (R, j): the leaky layer of row R of the features. -/
theorem stage1_apply (R : Fin 131072) (j : Fin 10) :
    val_main_v8 (F := Ideal) x0 x2 x3 (ix2 R j) = layer slope (mat x2) (vec x3) (rowOf x0 R) j := by
  have il : ∀ k : Fin 310, lidx_main_v0 (ix2 R j) k = ix2 R k := fun k => funext fun a => match a with | ⟨0, _⟩ => rfl | ⟨1, _⟩ => rfl
  have ir : ∀ k : Fin 310, ridx_main_v0 (ix2 R j) k = ix2 k j := fun k => funext fun a => match a with | ⟨0, _⟩ => rfl | ⟨1, _⟩ => rfl
  have ib : idx_main_v1 (idx_main_v2 (ix2 R j)) = ix1 j := funext fun a => match a with | ⟨0, _⟩ => rfl
  rw [val_main_v8_apply, val_main_v5_apply, val_main_v7_apply, val_main_v3_apply, val_main_v0_apply, val_main_v2_apply,
    val_main_v1_apply, val_main_v4_apply, val_main_cst_apply, val_main_v6_apply, val_main_cst_0_apply]
  simp only [il, ir, ib]
  rfl

/-- Second stage at (R, j): the leaky layer of row R of the first stage. -/
theorem stage2_apply (R : Fin 131072) (j : Fin 128) :
    val_main_v17 (F := Ideal) x0 x2 x3 x4 x5 (ix2 R j)
      = layer slope (mat x4) (vec x5) (fun q => val_main_v8 (F := Ideal) x0 x2 x3 (ix2 R q)) j := by
  have il : ∀ k : Fin 10, lidx_main_v9 (ix2 R j) k = ix2 R k := fun k => funext fun a => match a with | ⟨0, _⟩ => rfl | ⟨1, _⟩ => rfl
  have ir : ∀ k : Fin 10, ridx_main_v9 (ix2 R j) k = ix2 k j := fun k => funext fun a => match a with | ⟨0, _⟩ => rfl | ⟨1, _⟩ => rfl
  have ib : idx_main_v10 (idx_main_v11 (ix2 R j)) = ix1 j := funext fun a => match a with | ⟨0, _⟩ => rfl
  rw [val_main_v17_apply, val_main_v14_apply, val_main_v16_apply, val_main_v12_apply, val_main_v9_apply, val_main_v11_apply,
    val_main_v10_apply, val_main_v13_apply, val_main_cst_1_apply, val_main_v15_apply, val_main_cst_2_apply]
  simp only [il, ir, ib]
  rfl

/-- Third stage at (R, j): the leaky layer of row R of the second stage. -/
theorem stage3_apply (R : Fin 131072) (j : Fin 2) :
    val_main_v26 (F := Ideal) x0 x2 x3 x4 x5 x6 x7 (ix2 R j)
      = layer slope (mat x6) (vec x7) (fun q => val_main_v17 (F := Ideal) x0 x2 x3 x4 x5 (ix2 R q)) j := by
  have il : ∀ k : Fin 128, lidx_main_v18 (ix2 R j) k = ix2 R k := fun k => funext fun a => match a with | ⟨0, _⟩ => rfl | ⟨1, _⟩ => rfl
  have ir : ∀ k : Fin 128, ridx_main_v18 (ix2 R j) k = ix2 k j := fun k => funext fun a => match a with | ⟨0, _⟩ => rfl | ⟨1, _⟩ => rfl
  have ib : idx_main_v19 (idx_main_v20 (ix2 R j)) = ix1 j := funext fun a => match a with | ⟨0, _⟩ => rfl
  rw [val_main_v26_apply, val_main_v23_apply, val_main_v25_apply, val_main_v21_apply, val_main_v18_apply, val_main_v20_apply,
    val_main_v19_apply, val_main_v22_apply, val_main_cst_3_apply, val_main_v24_apply, val_main_cst_4_apply]
  simp only [il, ir, ib]
  rfl

/-- The coefficient stage at (R, j) is `coeff` of row R of the features. -/
theorem coeff_apply (R : Fin 131072) (j : Fin 2) :
    val_main_v26 (F := Ideal) x0 x2 x3 x4 x5 x6 x7 (ix2 R j)
      = coeff (mat x2) (vec x3) (mat x4) (vec x5) (mat x6) (vec x7) (rowOf x0 R) j := by
  refine (stage3_apply x0 x2 x3 x4 x5 x6 x7 R j).trans ?_
  refine congrArg (fun h => layer slope (mat x6) (vec x7) h j) (funext fun q2 => ?_)
  refine (stage2_apply x0 x2 x3 x4 x5 R q2).trans ?_
  exact congrArg (fun h => layer slope (mat x4) (vec x5) h q2) (funext fun q1 => stage1_apply x0 x2 x3 R q1)

/-- The reference's last stage is `out`. -/
theorem result_eq : val_main_v34 (F := Ideal) x0 x1 x2 x3 x4 x5 x6 x7 = out x0 x1 x2 x3 x4 x5 x6 x7 := by
  funext i
  obtain ⟨R, c, rfl⟩ : ∃ (R : Fin 131072) (c : Fin 100), i = ix2 R c := ⟨i 0, i 1, eq_ix2 i⟩
  have i0 : idx_main_v28 (idx_main_v29 (ix2 R c)) = ix2 R (0 : Fin 2) := funext fun a => match a with | ⟨0, _⟩ => rfl | ⟨1, _⟩ => rfl
  have i1 : idx_main_v31 (idx_main_v32 (ix2 R c)) = ix2 R (1 : Fin 2) := funext fun a => match a with | ⟨0, _⟩ => rfl | ⟨1, _⟩ => rfl
  rw [val_main_v34_apply, val_main_v30_apply, val_main_v33_apply, val_main_v29_apply, val_main_v28_apply, val_main_v32_apply,
    val_main_v31_apply, val_main_v27_apply, i0, i1, coeff_apply, coeff_apply]
  rfl

end Cert.ReferenceIdeal.RefRow

end
-- ==== Proof.lean ====
/-
  The kernel and its reference compute one function of their eight arguments.

  Each of the 131072 batch rows is treated by itself. A perceptron of three dense layers with leaky rectifiers
  (310 -> 10 -> 128 -> 2; the rectifier keeps v where v >= 0 and takes slope * v elsewhere, the slope the f32 word
  0x3C23D70A in both programs) maps the row's features to two coefficients c0, c1, and the row's 100 results are
  c0 * t + c1 * (t * t) at the row's 100 entries t of the second input: the function `Cert.PolyNet.out`.

  The reference computes it on whole arrays: three products against the weight matrices, each bias laid along the rows,
  a comparison with zero and a choice, two column slices of the coefficients broadcast along the rows
  (`Cert.ReferenceIdeal.RefRow.result_eq`, over the reference's run read one operation at a time). The kernel computes it
  sixteen times on blocks of 8192 rows, with matrix-unit products into zero accumulators and the biases as one-row
  matrices the host made of them (`Cert.KernelIdeal.BlockRow`); a row's result needs nothing outside the row, so each
  point writes back its block of `out` and the sixteen blocks tile the array (`Cert.KernelIdeal.Tiles.run`). On the
  extended reals a product into a zero accumulator is the plain sum of products, as the host's product is, so the two
  agree with no condition on the inputs: the precondition is never opened.

  The three frames are the generated ones (the reference's is its generated run with the result dropped); the
  idealization rewrote no operation, so it has nothing to preserve.
-/
import proofs.«115540_j78881369358886_2_alg».proof.Defs
import proofs.«115540_j78881369358886_2_alg».proof.Proof.Gen.Kernel
import proofs.«115540_j78881369358886_2_alg».proof.Proof.Gen.Kernel.Skeleton
import proofs.«115540_j78881369358886_2_alg».proof.Proof.Gen.Kernel.Launch
import proofs.«115540_j78881369358886_2_alg».proof.Proof.Gen.Kernel.Points
import proofs.«115540_j78881369358886_2_alg».proof.Proof.Gen.Kernel.Frame
import proofs.«115540_j78881369358886_2_alg».proof.Proof.Gen.KernelIdeal
import proofs.«115540_j78881369358886_2_alg».proof.Proof.Gen.KernelIdeal.Skeleton
import proofs.«115540_j78881369358886_2_alg».proof.Proof.Gen.KernelIdeal.Launch
import proofs.«115540_j78881369358886_2_alg».proof.Proof.Gen.KernelIdeal.Points
import proofs.«115540_j78881369358886_2_alg».proof.Proof.Gen.KernelIdeal.Frame
import proofs.«115540_j78881369358886_2_alg».proof.Proof.Gen.ReferenceIdeal
import proofs.«115540_j78881369358886_2_alg».proof.Proof.Gen.Pre_finite_inputs
import proofs.«115540_j78881369358886_2_alg».proof.Proof.Gen.KernelIdeal.Value
import proofs.«115540_j78881369358886_2_alg».proof.Proof.Gen.ReferenceIdeal.Run
import proofs.«115540_j78881369358886_2_alg».proof.Proof.Gen.ReferenceIdeal.Read
import proofs.«115540_j78881369358886_2_alg».proof.Proof.Tiles
import proofs.«115540_j78881369358886_2_alg».proof.Proof.RefRow
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result array holding `out` of the
    arguments: the kernel's by its blocks, the reference's by its run read stage by stage. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v34_eq, Cert.ReferenceIdeal.RefRow.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
